-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S256x256 : Shape := ⟨2, ![256, 256]⟩
abbrev S256 : Shape := ⟨1, ![256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x4096x256 .f32) (main_arg1 : FVec F S256x256 .f32) (main_arg2 : FVec F S256 .f32) (main_arg3 : FVec F S256x256 .f32) (main_arg4 : FVec F S256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16x4096x256 : Shape := ⟨3, ![16, 4096, 256]⟩
abbrev S256x256 : Shape := ⟨2, ![256, 256]⟩
abbrev S256 : Shape := ⟨1, ![256]⟩
abbrev S1x256 : Shape := ⟨2, ![1, 256]⟩
abbrev S65536x256 : Shape := ⟨2, ![65536, 256]⟩
abbrev S4096x256 : Shape := ⟨2, ![4096, 256]⟩
abbrev S16x1x256 : Shape := ⟨3, ![16, 1, 256]⟩
abbrev S16x256 : Shape := ⟨2, ![16, 256]⟩

abbrev nBuf : Space → Nat
  | .hbm => 15
  | .vmem => 6
  | .smem => 0
  | _ => 0

abbrev bufTy : (tb : Table) → Fin (tcTables nBuf tb) → BufTy
  | .hbm, ⟨0, _⟩ => ⟨S16x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x256, .bf16⟩
  | .hbm, ⟨8, _⟩ => ⟨S256, .f32⟩
  | .hbm, ⟨9, _⟩ => ⟨S1x256, .f32⟩
  | .hbm, ⟨10, _⟩ => ⟨S65536x256, .f32⟩
  | .hbm, ⟨11, _⟩ => ⟨S65536x256, .f32⟩
  | .hbm, ⟨12, _⟩ => ⟨S16x4096x256, .f32⟩
  | .hbm, ⟨13, _⟩ => ⟨S16x1x256, .f32⟩
  | .hbm, ⟨14, _⟩ => ⟨S16x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  shapeCasts_S16x4096x256_S65536x256 : S16x4096x256.ShapeCasts S65536x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S65536x256_S16x4096x256 : S65536x256.ShapeCasts S16x4096x256
  slices_S16x4096x256_S16x1x256_0_4095_0 : S16x4096x256.Slices ![0, 4095, 0] S16x1x256
  shapeCasts_S16x1x256_S16x256 : S16x1x256.ShapeCasts S16x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S65536x256.size a
  hwx0_3 : ∀ i : grid0.Coords, EltTy.bits .f32 = 32 ∨ (Rect.block (s := S65536x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v5) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S256x256 : Shape := ⟨2, ![256, 256]⟩
abbrev S256 : Shape := ⟨1, ![256]⟩
abbrev S1x1x256 : Shape := ⟨3, ![1, 1, 256]⟩
abbrev S16x1x256 : Shape := ⟨3, ![16, 1, 256]⟩
abbrev S16x256 : Shape := ⟨2, ![16, 256]⟩

abbrev nBuf : Space → Nat
  | .hbm => 17
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x4096x256, .f32⟩
  | .hbm, ⟨6, _⟩ => ⟨S1x1x256, .f32⟩
  | .hbm, ⟨7, _⟩ => ⟨S16x4096x256, .f32⟩
  | .hbm, ⟨8, _⟩ => ⟨S16x4096x256, .f32⟩
  | .hbm, ⟨9, _⟩ => ⟨S16x4096x256, .f32⟩
  | .hbm, ⟨10, _⟩ => ⟨S16x4096x256, .f32⟩
  | .hbm, ⟨11, _⟩ => ⟨S1x1x256, .f32⟩
  | .hbm, ⟨12, _⟩ => ⟨S16x4096x256, .f32⟩
  | .hbm, ⟨13, _⟩ => ⟨S16x4096x256, .f32⟩
  | .hbm, ⟨14, _⟩ => ⟨S16x4096x256, .f32⟩
  | .hbm, ⟨15, _⟩ => ⟨S16x1x256, .f32⟩
  | .hbm, ⟨16, _⟩ => ⟨S16x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  slices_S16x4096x256_S16x1x256_0_4095_0 : S16x4096x256.Slices ![0, 4095, 0] S16x1x256
  shapeCasts_S16x1x256_S16x256 : S16x1x256.ShapeCasts S16x256
  dot_S16x4096x256_S256x256_S16x4096x256_2_1_01_0_n_n_wf : DotDims.WF S16x4096x256 S256x256 S16x4096x256 [2] [1] [0, 1] [0] [] []

variable [Facts₀]

def dot_S16x4096x256_S256x256_S16x4096x256_2_1_01_0_n_n : DotDims S16x4096x256 S256x256 S16x4096x256 where
  lhsContracting := [2]
  rhsContracting := [1]
  lhsNonContracting := [0, 1]
  rhsNonContracting := [0]
  lhsBatch := []
  rhsBatch := []
  wf := dot_S16x4096x256_S256x256_S16x4096x256_2_1_01_0_n_n_wf

class Facts : Prop extends Facts₀ where

variable [Facts]
-- ==== Proof.CellLaw.lean ====
/-
  The law that joins a fused affine cell to its two-matmul spelling.

  One output entry of the recurrent cell is `tanh` of an affine form of a row `x` of the input:
  the fused spelling contracts `x` against the SUM of the two weight rows and adds the sum of the two biases,
  the unfused one contracts `x` against each weight row in turn, adding a bias after each contraction:

      Σₖ xₖ (aₖ + bₖ) + (p + q)   =   ((Σₖ xₖ aₖ + p) + Σₖ xₖ bₖ) + q.

  Over the reals this is distributivity of the product over the sum, followed by a regrouping of a sum of four
  terms. On the extended reals distributivity fails at the infinities (a negative `x` times `⊤ + ⊥`), so the law is
  stated for entries that are real numbers, and proved by moving every coercion `ℝ → EReal` to the outside.
-/
import Idealize.ShloMosaic.PureOps.Ideal

namespace Cert.CellLaw

/-- The coercion of the reals into the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over real entries, read in the extended reals. -/
theorem fused_eq_coe {K : ℕ} (x a b : Fin K → ℝ) (p q : ℝ) :
    (∑ k, (x k : EReal) * ((a k : EReal) + (b k : EReal))) + ((p : EReal) + (q : EReal))
      = (((∑ k, (x k : EReal) * (a k : EReal)) + (p : EReal)) + ∑ k, (x k : EReal) * (b k : EReal)) + (q : EReal) := by
  have hs : ∀ c : Fin K → ℝ, (∑ k, (x k : EReal) * (c k : EReal)) = ((∑ k, x k * c k : ℝ) : EReal) := fun c => by
    rw [coe_sum]; exact Finset.sum_congr rfl fun k _ => (EReal.coe_mul _ _).symm
  have hab : (∑ k, (x k : EReal) * ((a k : EReal) + (b k : EReal)))
      = ∑ k, (x k : EReal) * (((fun k => a k + b k) k : ℝ) : EReal) :=
    Finset.sum_congr rfl fun k _ => by rw [EReal.coe_add]
  rw [hab, hs, hs a, hs b, ← EReal.coe_add, ← EReal.coe_add, ← EReal.coe_add, ← EReal.coe_add, ← EReal.coe_add]
  congr 1
  simp only [mul_add, Finset.sum_add_distrib]
  ring

/-- The law for extended-real entries each of which is a real number. -/
theorem fused_eq {K : ℕ} (x a b : Fin K → EReal) (p q : EReal)
    (hx : ∀ k, ∃ r : ℝ, x k = r) (ha : ∀ k, ∃ r : ℝ, a k = r) (hb : ∀ k, ∃ r : ℝ, b k = r)
    (hp : ∃ r : ℝ, p = r) (hq : ∃ r : ℝ, q = r) :
    (∑ k, x k * (a k + b k)) + (p + q) = (((∑ k, x k * a k) + p) + ∑ k, x k * b k) + q := by
  choose xr hxr using hx
  choose ar har using ha
  choose br hbr using hb
  obtain ⟨pr, rfl⟩ := hp
  obtain ⟨qr, rfl⟩ := hq
  obtain rfl : x = fun k => (xr k : EReal) := funext hxr
  obtain rfl : a = fun k => (ar k : EReal) := funext har
  obtain rfl : b = fun k => (br k : EReal) := funext hbr
  exact fused_eq_coe xr ar br pr qr

end Cert.CellLaw
-- ==== Proof.Finite.lean ====
/-
  What the precondition says of each argument array: every entry is a real number.

  The precondition is the conjunction, over the five argument arrays, of "every entry's absolute value is below +∞".
  On the extended reals an entry `x` with `max x (-x) < ⊤` is neither `⊤` nor `⊥`, hence the coercion of a real.
-/
import proofs.«167791_j1331439861945_2_alg».proof.Pre_finite_inputs
import proofs.«167791_j1331439861945_2_alg».proof.Proof.Gen.Pre_finite_inputs
import Idealize.ShloMosaic.Lib.ReduceAll
import Idealize.ShloMosaic.Lib.ValueIdx
import Idealize.ShloMosaic.PureOps.Ideal

namespace Cert.FiniteInputs

open Idealize.ShloMosaic Cert.Pre_finite_inputs Cert.Pre_finite_inputs.Gen

/-- The rank-0 shape has one index. -/
instance : Subsingleton S_.Idx := ⟨fun a b => funext fun d => d.elim0⟩

/-- The word `0x7F800000` denotes `+∞`. -/
theorem inf_word : Ideal.ofBits .f32 0x7F800000#32 = ⊤ := by simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | top => simp [Ideal.cmp] at h
  | coe r => exact ⟨r, rfl⟩

/-- One array's conjunct: the `and` over all entries of "absolute value below +∞" being 1 makes every entry real. -/
theorem real_of_all {s : Shape} (a : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = r :=
  real_of_abs_lt (a i) (Host.reduce_andi_all _ _ hr hu ValueIdx.ix0 e i)

/-- The precondition, read: every entry of every argument array is a real number. -/
theorem reals (a0 : FVec Ideal S16x4096x256 .f32) (a1 : FVec Ideal S256x256 .f32) (a2 : FVec Ideal S256 .f32)
    (a3 : FVec Ideal S256x256 .f32) (a4 : FVec Ideal S256 .f32)
    (h : Cert.Pre_finite_inputs.fn (F := Ideal) a0 a1 a2 a3 a4 = fun _ => 1#1) :
    (∀ i, ∃ r : ℝ, a0 i = r) ∧ (∀ i, ∃ r : ℝ, a1 i = r) ∧ (∀ i, ∃ r : ℝ, a2 i = r)
      ∧ (∀ i, ∃ r : ℝ, a3 i = r) ∧ (∀ i, ∃ r : ℝ, a4 i = r) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3,
    real_of_all a4 _ _ _ e4⟩

end Cert.FiniteInputs
-- ==== Proof.RefCell.lean ====
/-
  The reference's first result, read at one entry.

  At batch `b`, step `s` and hidden unit `h` the reference holds

      tanh (((Σₖ x[b,s,k] · Wi[h,k] + bi[h]) + Σₖ x[b,s,k] · Wh[h,k]) + bh[h]) :

  two contractions of row `(b, s)` of the input against row `h` of each weight matrix, a bias added after each,
  in the order the reference adds them.
-/
import proofs.«167791_j1331439861945_2_alg».proof.Proof.Gen.ReferenceIdeal.Read
import Idealize.ShloMosaic.Lib.ValueIdx
import Idealize.ShloMosaic.PureOps.Ideal.Laws

noncomputable section

namespace Cert.ReferenceIdeal.Cell

open Idealize.ShloMosaic Idealize.ShloMosaic.ValueIdx Cert.ReferenceIdeal Cert.ReferenceIdeal.Gen Cert.ReferenceIdeal.Read

/-- The unfused cell at one entry, over a row of the input, a row of each weight matrix and the two biases. -/
def unfused (x wi wh : Fin 256 → EReal) (bi bh : EReal) : EReal :=
  Ideal.tanh ((((∑ k, x k * wi k) + bi) + ∑ k, x k * wh k) + bh)

theorem lidx_eq (b : Fin 16) (s : Fin 4096) (h k : Fin 256) : lidx_main_v0 (ix3 b s h) k = ix3 b s k :=
  funext fun a => Fin.ext (by match a with | ⟨0, _⟩ => rfl | ⟨1, _⟩ => rfl | ⟨2, _⟩ => rfl)
theorem ridx_eq (b : Fin 16) (s : Fin 4096) (h k : Fin 256) : ridx_main_v0 (ix3 b s h) k = ix2 h k :=
  funext fun a => Fin.ext (by match a with | ⟨0, _⟩ => rfl | ⟨1, _⟩ => rfl)
theorem lidx4_eq (b : Fin 16) (s : Fin 4096) (h k : Fin 256) : lidx_main_v4 (ix3 b s h) k = ix3 b s k :=
  funext fun a => Fin.ext (by match a with | ⟨0, _⟩ => rfl | ⟨1, _⟩ => rfl | ⟨2, _⟩ => rfl)
theorem ridx4_eq (b : Fin 16) (s : Fin 4096) (h k : Fin 256) : ridx_main_v4 (ix3 b s h) k = ix2 h k :=
  funext fun a => Fin.ext (by match a with | ⟨0, _⟩ => rfl | ⟨1, _⟩ => rfl)
theorem bias_idx_eq (b : Fin 16) (s : Fin 4096) (h : Fin 256) : idx_main_v1 (idx_main_v2 (ix3 b s h)) = ix1 h :=
  funext fun a => Fin.ext (by match a with | ⟨0, _⟩ => rfl)
theorem bias_idx7_eq (b : Fin 16) (s : Fin 4096) (h : Fin 256) : idx_main_v6 (idx_main_v7 (ix3 b s h)) = ix1 h :=
  funext fun a => Fin.ext (by match a with | ⟨0, _⟩ => rfl)

/-- The reference's first result at entry `(b, s, h)` is the unfused cell of row `(b, s)` of the input, row `h` of each
    weight matrix and entry `h` of each bias. -/
theorem hidden_apply (x : FVec Ideal S16x4096x256 .f32) (Wi : FVec Ideal S256x256 .f32) (bi : FVec Ideal S256 .f32)
    (Wh : FVec Ideal S256x256 .f32) (bh : FVec Ideal S256 .f32) (b : Fin 16) (s : Fin 4096) (h : Fin 256) :
    val_main_v9 (F := Ideal) x Wi bi Wh bh (ix3 b s h)
      = unfused (fun k => x (ix3 b s k)) (fun k => Wi (ix2 h k)) (fun k => Wh (ix2 h k)) (bi (ix1 h)) (bh (ix1 h)) := by
  rw [val_main_v9_apply, val_main_v8_apply, val_main_v5_apply, val_main_v3_apply, val_main_v0_apply, val_main_v2_apply,
    val_main_v1_apply, val_main_v4_apply, val_main_v7_apply, val_main_v6_apply]
  simp only [lidx_eq, ridx_eq, lidx4_eq, ridx4_eq, bias_idx_eq, bias_idx7_eq, Ideal.hostUnary_tanh_def, Ideal.addf_def]
  rfl

end Cert.ReferenceIdeal.Cell

end
-- ==== Proof.Prelude.lean ====
/-
  The arrays the region is entered with, as functions of the arguments.

  Before the region the program adds the two weight matrices and transposes the sum (contraction axis first),
  adds the two biases and views the sum as one row, and views the input's 16 × 4096 rows as 65536 rows. Read at an entry:

      rows[r, k]     = x[r / 4096, r % 4096, k]            (row r of the flattened input is step r % 4096 of batch r / 4096)
      weights[k, h]  = Wi[h, k] + Wh[h, k]
      bias[0, h]     = bi[h] + bh[h].
-/
import proofs.«167791_j1331439861945_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Prelude

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The five argument arrays on core `c`, as launched: the input, the two weight matrices, the two biases. -/
abbrev argX (c : Dev nD) : FVec Ideal S16x4096x256 .f32 := m ((c : Thread nD τ).loc main_arg0)
abbrev argWi (c : Dev nD) : FVec Ideal S256x256 .f32 := m ((c : Thread nD τ).loc main_arg1)
abbrev argBi (c : Dev nD) : FVec Ideal S256 .f32 := m ((c : Thread nD τ).loc main_arg2)
abbrev argWh (c : Dev nD) : FVec Ideal S256x256 .f32 := m ((c : Thread nD τ).loc main_arg3)
abbrev argBh (c : Dev nD) : FVec Ideal S256 .f32 := m ((c : Thread nD τ).loc main_arg4)

/-- The flattened input the region is entered with. -/
theorem rows_eq (c : Dev nD) :
    (V m c main_v5 : S65536x256.Idx → EReal)
      = shapeCast S65536x256 (argX m c) shapeCasts_S16x4096x256_S65536x256 := by
  show StableHlo.after hostOps0 (fun b => m (c, b)) (Proc.devRef .tc main_v5) = _
  after_results <;> rfl

/-- The fused weights the region is entered with. -/
theorem weights_eq (c : Dev nD) :
    (V m c main_v2 : S256x256.Idx → EReal)
      = (truncf (F := Ideal) .bf16 (transpose S256x256 [1, 0] (addf (argWi m c) (argWh m c))
          transposes_S256x256_S256x256_1_0) bitsLt_bf16_f32 : FVec Ideal S256x256 .bf16) := by
  show StableHlo.after hostOps0 (fun b => m (c, b)) (Proc.devRef .tc main_v2) = _
  after_results <;> rfl

/-- The fused bias row the region is entered with. -/
theorem bias_eq (c : Dev nD) :
    (V m c main_v4 : S1x256.Idx → EReal)
      = (shapeCast S1x256 (addf (argBi m c) (argBh m c)) shapeCasts_S256_S1x256 : FVec Ideal S1x256 .f32) := by
  show StableHlo.after hostOps0 (fun b => m (c, b)) (Proc.devRef .tc main_v4) = _
  after_results <;> rfl

/-- Row `b · 4096 + s` of the flattened input is step `s` of batch `b`. -/
theorem rows_apply (c : Dev nD) (b : Fin 16) (s : Fin 4096) (k : Fin 256) (r : Fin 65536) (hr : r.val = b.val * 4096 + s.val) :
    (V m c main_v5 : S65536x256.Idx → EReal) (ix2 r k) = argX m c (ix3 b s k) := by
  rw [rows_eq]
  exact shapeCast_apply _ shapeCasts_S16x4096x256_S65536x256 (ix2 r k) (ix3 b s k) (by
    rewrite [Shape.rowMajor_val_three, Shape.rowMajor_val_two]
    show (b.val * 4096 + s.val) * 256 + k.val = r.val * 256 + k.val
    rw [hr])

/-- Entry `(k, h)` of the fused weights is the sum of the two weight matrices' entries `(h, k)`. -/
theorem weights_apply (c : Dev nD) (k h : Fin 256) :
    (V m c main_v2 : S256x256.Idx → EReal) (ix2 k h)
      = argWi m c (ix2 h k) + argWh m c (ix2 h k) := by
  rw [weights_eq]
  show transpose S256x256 [1, 0] (addf (argWi m c) (argWh m c)) transposes_S256x256_S256x256_1_0 (ix2 k h) = _
  exact transpose_apply [1, 0] _ transposes_S256x256_S256x256_1_0 (ix2 k h) (ix2 h k) (fun a => match a with
    | ⟨0, _⟩ => rfl
    | ⟨1, _⟩ => rfl)

/-- Entry `h` of the fused bias row is the sum of the two biases' entries `h`. -/
theorem bias_apply (c : Dev nD) (h : Fin 256) :
    (V m c main_v4 : S1x256.Idx → EReal) (ix2 0 h)
      = argBi m c (ix1 h) + argBh m c (ix1 h) := by
  rw [bias_eq]
  exact shapeCast_apply _ shapeCasts_S256_S1x256 (ix2 0 h) (ix1 h) (by
    rewrite [Shape.rowMajor_val_one, Shape.rowMajor_val_two]
    show h.val = 0 * 256 + h.val
    omega)

end Cert.KernelIdeal.Prelude

end
-- ==== Proof.KernelCell.lean ====
/-
  The kernel body's stored value, read at one entry of its block.

  The body loads a block of 4096 rows of the flattened input, the fused weight matrix (contraction axis first) and
  the fused bias as one row, and stores `tanh (rows · weights + bias)`. At row `p` and column `q` of the block this is

      tanh (Σₖ rows[p,k] · weights[k,q] + bias[0,q]) :

  the matrix product into a zero accumulator is the plain sum over the contraction axis, the change of float format
  is the identity on the extended reals, the casts to the same shape are the identity, and the one-row bias
  broadcast down the rows reads its row.
-/
import proofs.«167791_j1331439861945_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Cell

open Idealize.ShloMosaic Idealize.ShloMosaic.ValueIdx Cert.KernelIdeal Cert.KernelIdeal.Gen

/-- The fused cell at one entry: a row of the input against a column of the fused weights, plus the fused bias. -/
def fused (x w : Fin 256 → EReal) (b : EReal) : EReal := Ideal.tanh ((∑ k, x k * w k) + b)

theorem lhs0 (j : S4096x256.Idx) (q : dot_S4096x256_S256x256_S4096x256_1_0_0_1_n_n.contr.Idx) :
    (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem lhs1 (j : S4096x256.Idx) (q : dot_S4096x256_S256x256_S4096x256_1_0_0_1_n_n.contr.Idx) :
    (dot_S4096x256_S256x256_S4096x256_1_0_0_1_n_n.lhsIdx j q 1).val = (q ⟨0, by decide⟩).val :=
  dot_S4096x256_S256x256_S4096x256_1_0_0_1_n_n.lhsIdx_val_of_single rfl j q
theorem rhs0 (j : S4096x256.Idx) (q : dot_S4096x256_S256x256_S4096x256_1_0_0_1_n_n.contr.Idx) :
    (dot_S4096x256_S256x256_S4096x256_1_0_0_1_n_n.rhsIdx j q 0).val = (q ⟨0, by decide⟩).val :=
  dot_S4096x256_S256x256_S4096x256_1_0_0_1_n_n.rhsIdx_val_of_single rfl j q
theorem rhs1 (j : S4096x256.Idx) (q : dot_S4096x256_S256x256_S4096x256_1_0_0_1_n_n.contr.Idx) :
    (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The matrix product of the body into the zero accumulator, at row `p` and column `q`: the sum over the 256
    contraction coordinates of the row's entry times the column's. -/
theorem product_apply (x : FVec Ideal S4096x256 .bf16) (w : FVec Ideal S256x256 .bf16) (j : S4096x256.Idx) :
    matmul dot_S4096x256_S256x256_S4096x256_1_0_0_1_n_n none x w (constant S4096x256 .f32 0x00000000#32) j
      = ∑ k : Fin 256, x (ix2 (j 0) k) * w (ix2 k (j 1)) := by
  simp only [matmul]
  rw [Ideal.matmul_constant_zero_apply,
    ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx j
      ((contrEquiv1 dot_S4096x256_S256x256_S4096x256_1_0_0_1_n_n 256 rfl rfl).symm k) = ix2 (j 0) k :=
    funext fun a => Fin.ext (by
      match a with
      | ⟨0, _⟩ => exact lhs0 _ _
      | ⟨1, _⟩ => exact (lhs1 _ _).trans hk)
  have er : dot_S4096x256_S256x256_S4096x256_1_0_0_1_n_n.rhsIdx j
      ((contrEquiv1 dot_S4096x256_S256x256_S4096x256_1_0_0_1_n_n 256 rfl rfl).symm k) = ix2 k (j 1) :=
    funext fun a => Fin.ext (by
      match a with
      | ⟨0, _⟩ => exact (rhs0 _ _).trans hk
      | ⟨1, _⟩ => exact rhs1 _ _)
  rw [el, er]
  rfl

/-- The one-row bias broadcast down the 4096 rows reads its row. -/
theorem bias_apply (b : FVec Ideal S1x256 .f32) (j : S4096x256.Idx) :
    broadcastTo S4096x256 b broadcasts_S1x256_S4096x256 j = b (ix2 0 (j 1)) :=
  broadcastTo_apply b broadcasts_S1x256_S4096x256 j (ix2 0 (j 1)) (fun a => match a with
    | ⟨0, _⟩ => by show (0 : ℕ) = if (1 : ℕ) = 1 then 0 else (j 0).val; rw [if_pos rfl]
    | ⟨1, _⟩ => by show (j 1).val = if (256 : ℕ) = 1 then 0 else (j 1).val; rw [if_neg (by decide)])

/-- THE BODY'S STORED VALUE at row `j 0`, column `j 1` of the block is the fused cell of that row of the loaded input
    block, that column of the loaded weights and that entry of the loaded bias row. -/
theorem payload_apply (x : Vec Ideal S4096x256 .f32) (w : Vec Ideal S256x256 .bf16) (b : Vec Ideal S1x256 .f32)
    (j : S4096x256.Idx) :
    k0_pay1 (F := Ideal) x w b j = fused (fun k => x (ix2 (j 0) k)) (fun k => w (ix2 k (j 1))) (b (ix2 0 (j 1))) := by
  unfold k0_pay1
  show FloatOps.tanh (FloatOps.addf (matmul dot_S4096x256_S256x256_S4096x256_1_0_0_1_n_n none _ _
      (constant S4096x256 .f32 0x00000000#32) j) (broadcastTo S4096x256 _ broadcasts_S1x256_S4096x256 j)) = _
  rw [product_apply, bias_apply, shapeCast_self, shapeCast_self, shapeCast_self]
  rfl

end Cert.KernelIdeal.Cell

end
-- ==== Proof.Blocks.lean ====
/-
  From the blocks the grid points write back to the whole flat output array.

  The grid has 16 points; point `t` reads rows `4096 t … 4096 t + 4095` of the flattened input together with the whole
  fused weight matrix and bias row, and writes back rows `4096 t … 4096 t + 4095` of the output. Every entry of the
  block it writes is the fused cell of a row of ITS input block, which is the same row of the flattened input; so each
  block written back is a block of ONE function of the three arrays the region is entered with,

      flat[r, h] = tanh (Σₖ rows[r, k] · weights[k, h] + bias[0, h]),

  and since the 16 blocks tile the 65536 rows (row `r` lies in the block of point `r / 4096`), the output array ends
  holding that function.
-/
import proofs.«167791_j1331439861945_2_alg».proof.Proof.Gen.KernelIdeal.Frame
import proofs.«167791_j1331439861945_2_alg».proof.Proof.KernelCell
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Cell

variable (m : (ℓ : Loc nD τ sig) → Buf (Elt Ideal) ℓ)

theorem zero_offsets : (![0, 0] : Fin 2 → Nat) = fun _ => 0 := funext fun a => by fin_cases a <;> rfl

/-- The flat output array as one function of the three arrays the region is entered with. -/
def flat (rows : S65536x256.Idx → EReal) (w : S256x256.Idx → EReal) (b : S1x256.Idx → EReal) : S65536x256.Idx → EReal :=
  fun i => fused (fun k => rows (ix2 (i 0) k)) (fun k => w (ix2 k (i 1))) (b (ix2 0 (i 1)))

/-- An entry of the body's stored block is the entry of `flat` at the array index it lands on, once each loaded
    block's entries it depends on are the arrays' entries there. -/
theorem block_entry (x0 : Vec Ideal S4096x256 .f32) (x1 : Vec Ideal S256x256 .bf16) (x2 : Vec Ideal S1x256 .f32)
    (rows : S65536x256.Idx → EReal) (w : S256x256.Idx → EReal) (b : S1x256.Idx → EReal)
    (j : S4096x256.Idx) (i : S65536x256.Idx)
    (h0 : ∀ k : Fin 256, x0 (ix2 (j 0) k) = rows (ix2 (i 0) k))
    (h1 : ∀ k : Fin 256, x1 (ix2 k (j 1)) = w (ix2 k (i 1)))
    (h2 : x2 (ix2 0 (j 1)) = b (ix2 0 (i 1))) :
    k0_pay1 (F := Ideal) x0 x1 x2 j = flat rows w b i := by
  rw [payload_apply]
  unfold flat
  rw [funext h0, funext h1, h2]

/-- The windows' block indices over the grid: the input rows and the output rows move with the point, the weights and
    the bias stay at their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `flat` of the arrays the region is entered with. -/
theorem flushed_eq (c : Dev nD) (t : Fin cfg0.N) :
    (dats m 0 c).flushed 3 t
      = ((cfg0.win 3).blk t).view.read (Elt Ideal) (flat (V m c main_v5) (V m c main_v2) (V m c main_v4)) := by
  show (cfg0.win 3).cut (grid0.coords t) ((dats m 0 c).after 3 t) = _
  rw [after0_3]
  unfold out0_3
  rw [View.canon_unit_zero zero_offsets]
  simp only [View.ld_unit_zero (S := S4096x256) zero_offsets, View.ld_unit_zero (S := S256x256) zero_offsets,
    View.ld_unit_zero (S := S1x256) zero_offsets]
  obtain ⟨e00, e01, e10, e11, e20, e21, e30, e31⟩ := index_facts t
  funext j
  refine block_entry (iblk m c 0 t) (iblk m c 1 t) (iblk m c 2 t) (V m c main_v5) (V m c main_v2) (V m c main_v4) j
    (((cfg0.win 3).blk t).view.emb j) (fun k => ?_) (fun k => ?_) ?_
  · show V m c main_v5 (((cfg0.win 0).blk t).view.emb (ix2 (j 0) k)) = V m c main_v5 (ix2 ((((cfg0.win 3).blk t).view.emb j) 0) k)
    congr 1
    funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 256 + 1 * k.val = k.val; omega
  · show V m c main_v2 (((cfg0.win 1).blk t).view.emb (ix2 k (j 1))) = V m c main_v2 (ix2 k ((((cfg0.win 3).blk t).view.emb j) 1))
    congr 1
    funext a; apply Fin.ext
    match a with
    | ⟨0, _⟩ => show win0_1.index t (0 : Fin 2) * 256 + 1 * k.val = k.val; omega
    | ⟨1, _⟩ => show win0_1.index t (1 : Fin 2) * 256 + 1 * (j 1).val = win0_3.index t (1 : Fin 2) * 256 + 1 * (j 1).val; omega
  · show V m c main_v4 (((cfg0.win 2).blk t).view.emb (ix2 0 (j 1))) = V m c main_v4 (ix2 0 ((((cfg0.win 3).blk t).view.emb j) 1))
    congr 1
    funext a; apply Fin.ext
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega

/-- An index of the output array is in point `t`'s block iff each coordinate is in the block's range on its axis. -/
theorem mem_block (t : Fin cfg0.N) (i : S65536x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v6).slice (win0_3.rect t)).set ↔ _
  rw [View.set_slice_whole, Rect.mem_set_unit]
  exact Iff.rfl

/-- Every index of the output array is in the block of the point numbered by its row divided by 4096. -/
theorem covered (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  have hN : cfg0.N = 16 := N_0
  obtain ⟨t, ht⟩ : ∃ t : Fin cfg0.N, t.val = (i 0).val / 4096 := ⟨⟨(i 0).val / 4096, by rw [hN]; omega⟩, rfl⟩
  obtain ⟨-, -, -, -, -, -, e30, e31⟩ := index_facts t
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 256 ≤ (i 1).val ∧ (i 1).val < win0_3.index t (1 : Fin 2) * 256 + 256; omega

/-- THE OUTPUT ARRAY AFTER THE REGION is `flat` of the arrays the region is entered with. -/
theorem final (c : Dev nD) :
    (dats m 0 c).arrAt 3 cfg0.N = flat (V m c main_v5) (V m c main_v2) (V m c main_v4) :=
  (dats m 0 c).arrAt_eq_of_cover 3 (flat (V m c main_v5) (V m c main_v2) (V m c main_v4))
    (fun t _ => flushed_eq m c t) covered

end Cert.KernelIdeal.Blocks

end
-- ==== Proof.Tail.lean ====
/-
  The two results, from the output array the region leaves.

  After the region the program views the 65536 output rows as 16 batches of 4096 steps — the first result — and takes
  step 4095 of every batch, dropping the unit axis — the second result. Both are read off the run's final state as
  those operations applied to the output array after the region.
-/
import proofs.«167791_j1331439861945_2_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.Tail

open Idealize.ShloMosaic Idealize.ShloMosaic.TcCoe Idealize.SL.Sem
open Cert.KernelIdeal Cert.KernelIdeal.Gen

variable (m : (ℓ : Loc nD τ sig) → Buf (Elt Ideal) ℓ)

/-- The last step of every batch: the slice at step 4095 with its unit axis dropped. -/
def lastStep (h : S16x4096x256.Idx → EReal) : S16x256.Idx → EReal :=
  shapeCast S16x256 (extractStridedSlice S16x1x256 ![0, 4095, 0] h slices_S16x4096x256_S16x1x256_0_4095_0)
    shapeCasts_S16x1x256_S16x256

/-- The output array after the region, as a plain function of its two coordinates. -/
abbrev outArr (c : Dev nD) : S65536x256.Idx → EReal := (dats m 0 c).arrAt 3 cfg0.N

/-- The region leaves its output array where the operations after it read it. -/
theorem region_out (c : Dev nD) :
    Pipeline.withArrays (cfgs 0).spec c (V0 m c) (fun w => (dats m 0 c).arrAt w (cfgs 0).N) (Proc.devRef .tc main_v6)
      = (dats m 0 c).arrAt 3 cfg0.N :=
  Pipeline.withArrays_arr spec0 launch0.win.arr_inj c _ _ 3

/-- The first result is the output array viewed as 16 × 4096 × 256. -/
theorem hidden_eq (c : Dev nD) :
    (Pipeline.afterTail₀ cfgs (dats m) 0 (V0 m) [hostOps1] c main_v7 : S16x4096x256.Idx → EReal)
      = shapeCast S16x4096x256 (outArr m c) shapeCasts_S65536x256_S16x4096x256 := by
  unfold Pipeline.afterTail₀
  show StableHlo.after hostOps1 _ (Proc.devRef .tc main_v7) = _
  after_results
  rw [region_out]
  rfl

/-- The second result is the last step of the first. -/
theorem last_eq (c : Dev nD) :
    (Pipeline.afterTail₀ cfgs (dats m) 0 (V0 m) [hostOps1] c main_v9 : S16x256.Idx → EReal)
      = lastStep (shapeCast S16x4096x256 (outArr m c) shapeCasts_S65536x256_S16x4096x256) := by
  unfold Pipeline.afterTail₀
  show StableHlo.after hostOps1 _ (Proc.devRef .tc main_v9) = _
  after_results
  rw [region_out]
  rfl

end Cert.KernelIdeal.Tail

end
-- ==== Proof.Bridge.lean ====
/-
  The kernel's two results are the reference's.

  Entry `(b, s, h)` of the kernel's first result is entry `(4096 b + s, h)` of the flat output array, the fused cell of row
  `4096 b + s` of the flattened input — row `(b, s)` of the input — against column `h` of the fused weights —
  `Wi[h, ·] + Wh[h, ·]` — plus `bi[h] + bh[h]`. The reference's entry there is the unfused cell of the same row, the two weight
  rows and the two biases. For real entries the two cells are equal (distributivity and a regrouping: `CellLaw`), and the
  precondition makes every entry real. The second result is on both sides the last step of the first.
-/
import proofs.«167791_j1331439861945_2_alg».proof.Defs
import proofs.«167791_j1331439861945_2_alg».proof.Proof.CellLaw
import proofs.«167791_j1331439861945_2_alg».proof.Proof.Finite
import proofs.«167791_j1331439861945_2_alg».proof.Proof.RefCell
import proofs.«167791_j1331439861945_2_alg».proof.Proof.Prelude
import proofs.«167791_j1331439861945_2_alg».proof.Proof.Blocks
import proofs.«167791_j1331439861945_2_alg».proof.Proof.Tail

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Prelude Cert.KernelIdeal.Blocks Cert.KernelIdeal.Tail

variable (m : (ℓ : Loc nD τ sig) → Buf (Elt Ideal) ℓ)

/-- For real entries the fused cell of the summed weights and biases is the unfused cell. -/
theorem cell_eq (x wi wh : Fin 256 → EReal) (bi bh : EReal)
    (hx : ∀ k, ∃ r : ℝ, x k = r) (hwi : ∀ k, ∃ r : ℝ, wi k = r) (hwh : ∀ k, ∃ r : ℝ, wh k = r)
    (hbi : ∃ r : ℝ, bi = r) (hbh : ∃ r : ℝ, bh = r) :
    Cert.KernelIdeal.Cell.fused x (fun k => wi k + wh k) (bi + bh) = Cert.ReferenceIdeal.Cell.unfused x wi wh bi bh := by
  unfold Cert.KernelIdeal.Cell.fused Cert.ReferenceIdeal.Cell.unfused
  exact congrArg Ideal.tanh (Cert.CellLaw.fused_eq x wi wh bi bh hx hwi hwh hbi hbh)

/-- The reference's first result, of the kernel's argument arrays. -/
abbrev hidden (c : Dev nD) : S16x4096x256.Idx → EReal :=
  Cert.ReferenceIdeal.Read.val_main_v9 (F := Ideal) (argX m c) (argWi m c) (argBi m c) (argWh m c) (argBh m c)

/-- THE FIRST RESULT: the flat output array viewed as 16 × 4096 × 256 is the reference's first result, entry by entry,
    when every argument entry is real. -/
theorem hidden_eq (c : Dev nD)
    (hx : ∀ i, ∃ r : ℝ, argX m c i = r) (hwi : ∀ i, ∃ r : ℝ, argWi m c i = r) (hbi : ∀ i, ∃ r : ℝ, argBi m c i = r)
    (hwh : ∀ i, ∃ r : ℝ, argWh m c i = r) (hbh : ∀ i, ∃ r : ℝ, argBh m c i = r) :
    shapeCast S16x4096x256 (flat (V m c main_v5) (V m c main_v2) (V m c main_v4)) shapeCasts_S65536x256_S16x4096x256
      = hidden m c := by
  funext i
  obtain ⟨b, s, h, rfl⟩ : ∃ (b : Fin 16) (s : Fin 4096) (h : Fin 256), i = ix3 b s h := ⟨i 0, i 1, i 2, eq_ix3 i⟩
  have hr : b.val * 4096 + s.val < 65536 := by have := b.isLt; have := s.isLt; omega
  rw [shapeCast_apply _ shapeCasts_S65536x256_S16x4096x256 (ix3 b s h) (ix2 ⟨b.val * 4096 + s.val, hr⟩ h) (by
    rewrite [Shape.rowMajor_val_two, Shape.rowMajor_val_three]; rfl)]
  unfold hidden
  rw [Cert.ReferenceIdeal.Cell.hidden_apply]
  show Cert.KernelIdeal.Cell.fused (fun k => (V m c main_v5 : S65536x256.Idx → EReal) (ix2 ⟨b.val * 4096 + s.val, hr⟩ k))
    (fun k => (V m c main_v2 : S256x256.Idx → EReal) (ix2 k h)) ((V m c main_v4 : S1x256.Idx → EReal) (ix2 0 h)) = _
  have e0 : (fun k : Fin 256 => (V m c main_v5 : S65536x256.Idx → EReal) (ix2 ⟨b.val * 4096 + s.val, hr⟩ k))
      = fun k => argX m c (ix3 b s k) := funext fun k => rows_apply m c b s k ⟨b.val * 4096 + s.val, hr⟩ rfl
  have e1 : (fun k : Fin 256 => (V m c main_v2 : S256x256.Idx → EReal) (ix2 k h))
      = fun k => argWi m c (ix2 h k) + argWh m c (ix2 h k) := funext fun k => weights_apply m c k h
  rw [e0, e1, bias_apply m c h]
  exact cell_eq _ _ _ _ _ (fun k => hx _) (fun k => hwi _) (fun k => hwh _) (hbi _) (hbh _)

/-- The reference's second result is the last step of its first. -/
theorem last_hidden (c : Dev nD) :
    lastStep (hidden m c)
      = Cert.ReferenceIdeal.Read.val_main_v11 (F := Ideal) (argX m c) (argWi m c) (argBi m c) (argWh m c) (argBh m c) := rfl

/-- THE KERNEL'S RUN, READ: under the precondition every weakly fair execution terminates with the first result at the
    reference's first result of the arguments, the second at the reference's second, and the arguments unchanged. -/
theorem run (ρ : Dev nD → PrngReg) (hpre : Cert.Pre_KernelIdeal (hPre_finite_inputs := Cert.Pre_finite_inputs.Gen.facts) m) :
    θ_run defs (onTc (τ := τ) (main (F := Ideal))) ⟨m, fun _ => 0, ρ⟩ fun r => ∀ c : Dev nD,
      r.2.mem ((c.tc : Thread nD τ).loc main_v7) = hidden m c
      ∧ r.2.mem ((c.tc : Thread nD τ).loc main_v9)
          = Cert.ReferenceIdeal.Read.val_main_v11 (F := Ideal) (argX m c) (argWi m c) (argBi m c) (argWh m c) (argBh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  obtain ⟨hx, hwi, hbi, hwh, hbh⟩ := Cert.FiniteInputs.reals _ _ _ _ _ (hpre c)
  have hfirst : shapeCast S16x4096x256 (outArr m c) shapeCasts_S65536x256_S16x4096x256 = hidden m c := by
    show shapeCast S16x4096x256 ((dats m 0 c).arrAt 3 cfg0.N) shapeCasts_S65536x256_S16x4096x256 = _
    rw [final m c]
    exact hidden_eq m c hx hwi hbi hwh hbh
  refine ⟨?_, ?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩
  · refine ((h c).2 main_v7 (Pipeline.mem_restRefs_of main_v7 (by decide) (by decide))).trans ?_
    exact (Tail.hidden_eq m c).trans hfirst
  · refine ((h c).2 main_v9 (Pipeline.mem_restRefs_of main_v9 (by decide) (by decide))).trans ?_
    refine (Tail.last_eq m c).trans ?_
    rw [hfirst]
    exact last_hidden m c

end Cert.KernelIdeal.Bridge

end
-- ==== Proof.lean ====
/-
  A recurrent cell without recurrence: `tanh (x·Wiᵀ + bi + x·Whᵀ + bh)` at every step of every batch, and its last step.

  The kernel adds the two weight matrices and the two biases once, ahead of time, and computes `tanh (x·(Wi + Wh)ᵀ + (bi + bh))`
  over the 65536 rows of the flattened input, 4096 rows per grid point; the reference contracts the input against each
  weight matrix in turn. Entry by entry the two are

      tanh (Σₖ xₖ (aₖ + bₖ) + (p + q))     and     tanh (((Σₖ xₖ aₖ + p) + Σₖ xₖ bₖ) + q),

  equal for real entries by distributivity and a regrouping of four summands (`CellLaw`); on the extended reals
  distributivity fails at the infinities, and the precondition — every input entry finite — is what excludes them
  (`Finite`). The changes of float format on the way (the weights and the input rows are narrowed before the matrix
  product) are the identity on the extended reals, and the matrix product into a zero accumulator is the plain sum.

  The parts: `RefCell` reads the reference's first result at an entry; `KernelCell` the kernel body's stored value at an
  entry of its block; `Prelude` the flattened input, the fused weights and the fused bias the region is entered with;
  `Blocks` puts the 16 blocks written back together into the flat output array; `Tail` reads the two results off that
  array (a view as 16 × 4096 × 256, and its last step); `Bridge` joins the two sides and restates the kernel's run.
  The second result is the same function of the first on both sides, so it needs no argument of its own.

  The three frames: the kernel's, at the word level and idealized, are the generated frame certificates; the
  reference's is its generated run with the results dropped. The idealization rewrote nothing, so there is nothing to
  preserve.
-/
import proofs.«167791_j1331439861945_2_alg».proof.Defs
import proofs.«167791_j1331439861945_2_alg».proof.Proof.Gen.Kernel
import proofs.«167791_j1331439861945_2_alg».proof.Proof.Gen.Kernel.Skeleton
import proofs.«167791_j1331439861945_2_alg».proof.Proof.Gen.Kernel.Launch
import proofs.«167791_j1331439861945_2_alg».proof.Proof.Gen.Kernel.Points
import proofs.«167791_j1331439861945_2_alg».proof.Proof.Gen.Kernel.Frame
import proofs.«167791_j1331439861945_2_alg».proof.Proof.Gen.KernelIdeal
import proofs.«167791_j1331439861945_2_alg».proof.Proof.Gen.KernelIdeal.Skeleton
import proofs.«167791_j1331439861945_2_alg».proof.Proof.Gen.KernelIdeal.Launch
import proofs.«167791_j1331439861945_2_alg».proof.Proof.Gen.KernelIdeal.Points
import proofs.«167791_j1331439861945_2_alg».proof.Proof.Gen.KernelIdeal.Frame
import proofs.«167791_j1331439861945_2_alg».proof.Proof.Gen.ReferenceIdeal
import proofs.«167791_j1331439861945_2_alg».proof.Proof.Gen.Pre_finite_inputs
import proofs.«167791_j1331439861945_2_alg».proof.Proof.Gen.ReferenceIdeal.Run
import proofs.«167791_j1331439861945_2_alg».proof.Proof.Gen.ReferenceIdeal.Read
import proofs.«167791_j1331439861945_2_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments as they were: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the same two results: the reference's own
    two stages of the kernel's arguments — the kernel by `Bridge.run`, the reference by its run with the arguments'
    agreement rewritten. -/
theorem algebraic : Cert.algebraic_KernelIdeal_ReferenceIdeal := by
  intro m ρ m' ρ' hpre hagree
  refine ⟨fun c => Cert.KernelIdeal.Bridge.hidden m c,
    fun c => Cert.ReferenceIdeal.Read.val_main_v11 (F := Ideal) (Cert.KernelIdeal.Prelude.argX m c)
      (Cert.KernelIdeal.Prelude.argWi m c) (Cert.KernelIdeal.Prelude.argBi m c) (Cert.KernelIdeal.Prelude.argWh m c)
      (Cert.KernelIdeal.Prelude.argBh m c),
    Cert.KernelIdeal.Bridge.run m ρ hpre, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2⟩
  · rw [a0, a1, a2, a3, a4]; rfl
  · rw [a0, a1, a2, a3, a4]; rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
